-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x128 : Shape := ⟨3, ![32, 32, 128]⟩
abbrev S512x180x128 : Shape := ⟨3, ![512, 180, 128]⟩
abbrev S32x32 : Shape := ⟨2, ![32, 32]⟩
abbrev S512x180 : Shape := ⟨2, ![512, 180]⟩
abbrev S_ : Shape := ⟨0, ![]⟩

class Facts : Prop where
  bcast_S_S32x32x128 : S_.BroadcastsInDim S32x32x128 (![] : Fin 0 → Fin S32x32x128.rank)
  reducesTo_S32x32x128_S_d0_1_2 : S32x32x128.ReducesTo [0, 1, 2] S_
  h_S_ : 0 < S_.numel
  bcast_S_S512x180x128 : S_.BroadcastsInDim S512x180x128 (![] : Fin 0 → Fin S512x180x128.rank)
  reducesTo_S512x180x128_S_d0_1_2 : S512x180x128.ReducesTo [0, 1, 2] S_

variable [Facts]

def fn {F : FTy → Type} [FloatOps F] (main_arg0 : FVec F S32x32x128 .f32) (main_arg1 : FVec F S512x180x128 .f32) (main_arg2 : IVec S32x32 32) (main_arg3 : IVec S512x180 32) : IVec S_ 1 :=
  let main_v0 : FVec F S32x32x128 .f32 := Host.absf main_arg0
  let main_cst : FVec F S_ .f32 := constant S_ .f32 0x7F800000#32
  let main_v1 : FVec F S32x32x128 .f32 := broadcastInDim S32x32x128 ![] bcast_S_S32x32x128 main_cst
  let main_v2 : IVec S32x32x128 1 := cmpf .olt main_v0 main_v1
  let main_c : IVec S_ 1 := constantI S_ 1 1#1
  let main_v3 : IVec S_ 1 := (fun x v => Host.reduce IntOp.andi x v reducesTo_S32x32x128_S_d0_1_2 h_S_) main_v2 main_c
  let main_v4 : FVec F S512x180x128 .f32 := Host.absf main_arg1
  let main_cst_0 : FVec F S_ .f32 := constant S_ .f32 0x7F800000#32
  let main_v5 : FVec F S512x180x128 .f32 := broadcastInDim S512x180x128 ![] bcast_S_S512x180x128 main_cst_0
  let main_v6 : IVec S512x180x128 1 := cmpf .olt main_v4 main_v5
  let main_c_1 : IVec S_ 1 := constantI S_ 1 1#1
  let main_v7 : IVec S_ 1 := (fun x v => Host.reduce IntOp.andi x v reducesTo_S512x180x128_S_d0_1_2 h_S_) main_v6 main_c_1
  let main_v8 : IVec S_ 1 := andi main_v3 main_v7
  main_v8
-- ==== Kernel.lean ====
abbrev S32x32x128 : Shape := ⟨3, ![32, 32, 128]⟩
abbrev S512x180x128 : Shape := ⟨3, ![512, 180, 128]⟩
abbrev S32x32 : Shape := ⟨2, ![32, 32]⟩
abbrev S512x180 : Shape := ⟨2, ![512, 180]⟩
abbrev S32x512 : Shape := ⟨2, ![32, 512]⟩
abbrev S128x180x128 : Shape := ⟨3, ![128, 180, 128]⟩
abbrev S128x180 : Shape := ⟨2, ![128, 180]⟩
abbrev S32x128 : Shape := ⟨2, ![32, 128]⟩
abbrev S32x32x1 : Shape := ⟨3, ![32, 32, 1]⟩
abbrev S1024x128 : Shape := ⟨2, ![1024, 128]⟩
abbrev S16x180x128 : Shape := ⟨3, ![16, 180, 128]⟩
abbrev S16x180 : Shape := ⟨2, ![16, 180]⟩
abbrev S16x180x1 : Shape := ⟨3, ![16, 180, 1]⟩
abbrev S2880x128 : Shape := ⟨2, ![2880, 128]⟩
abbrev S1024x2880 : Shape := ⟨2, ![1024, 2880]⟩
abbrev S1024x180 : Shape := ⟨2, ![1024, 180]⟩
abbrev S1024 : Shape := ⟨1, ![1024]⟩
abbrev S1024x1 : Shape := ⟨2, ![1024, 1]⟩
abbrev S32 : Shape := ⟨1, ![32]⟩
abbrev S32x1 : Shape := ⟨2, ![32, 1]⟩
abbrev S32x16 : Shape := ⟨2, ![32, 16]⟩

abbrev nBuf : Space → Nat
  | .hbm => 5
  | .vmem => 8
  | .smem => 0
  | _ => 0

abbrev bufTy : (tb : Table) → Fin (tcTables nBuf tb) → BufTy
  | .hbm, ⟨0, _⟩ => ⟨S32x32x128, .f32⟩
  | .hbm, ⟨1, _⟩ => ⟨S512x180x128, .f32⟩
  | .hbm, ⟨2, _⟩ => ⟨S32x32, .i32⟩
  | .hbm, ⟨3, _⟩ => ⟨S512x180, .i32⟩
  | .hbm, ⟨4, _⟩ => ⟨S32x512, .f32⟩
  | .local _ .vmem, ⟨0, _⟩ => ⟨S32x32x128, .f32⟩
  | .local _ .vmem, ⟨1, _⟩ => ⟨S128x180x128, .f32⟩
  | .local _ .vmem, ⟨2, _⟩ => ⟨S128x180x128, .f32⟩
  | .local _ .vmem, ⟨3, _⟩ => ⟨S32x32, .i32⟩
  | .local _ .vmem, ⟨4, _⟩ => ⟨S128x180, .i32⟩
  | .local _ .vmem, ⟨5, _⟩ => ⟨S128x180, .i32⟩
  | .local _ .vmem, ⟨6, _⟩ => ⟨S32x128, .f32⟩
  | .local _ .vmem, ⟨7, _⟩ => ⟨S32x128, .f32⟩
  | _, _ => ⟨S32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x180x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x180 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S32x32x128_S32x32x128_0_0_0 : ∀ a, (![0, 0, 0] : Fin 3 → Nat) a + S32x32x128.size a ≤ S32x32x128.size a
  h_S32x32x128 : 0 < S32x32x128.numel
  inb_S32x32_S32x32_0_0 : ∀ a, (![0, 0] : Fin 2 → Nat) a + S32x32.size a ≤ S32x32.size a
  h_S32x32 : 0 < S32x32.numel
  shapeCasts_S32x32_S32x32x1 : S32x32.ShapeCasts S32x32x1
  broadcasts_S32x32x1_S32x32x128 : S32x32x1.Broadcasts S32x32x128
  shapeCasts_S32x32x128_S1024x128 : S32x32x128.ShapeCasts S1024x128
  bitsLt_bf16_f32 : FTy.bits .bf16 < FTy.bits .f32
  inb_S128x180x128_S16x180x128_0_0_0 : ∀ a, (![0, 0, 0] : Fin 3 → Nat) a + S16x180x128.size a ≤ S128x180x128.size a
  h_S16x180x128 : 0 < S16x180x128.numel
  inb_S128x180_S16x180_0_0 : ∀ a, (![0, 0] : Fin 2 → Nat) a + S16x180.size a ≤ S128x180.size a
  h_S16x180 : 0 < S16x180.numel
  shapeCasts_S16x180_S16x180x1 : S16x180.ShapeCasts S16x180x1
  broadcasts_S16x180x1_S16x180x128 : S16x180x1.Broadcasts S16x180x128
  shapeCasts_S16x180x128_S2880x128 : S16x180x128.ShapeCasts S2880x128
  slices_S1024x2880_o0_0_S1024x180 : S1024x2880.Slices ![0, 0] S1024x180
  reduces_S1024x180_S1024 : S1024x180.Reduces [1] S1024
  shapeCasts_S1024_S1024x1 : S1024.ShapeCasts S1024x1
  shapeCasts_S1024x1_S32x32 : S1024x1.ShapeCasts S32x32
  reduces_S32x32_S32 : S32x32.Reduces [1] S32
  shapeCasts_S32_S32x1 : S32.ShapeCasts S32x1
  slices_S1024x2880_o0_180_S1024x180 : S1024x2880.Slices ![0, 180] S1024x180
  slices_S1024x2880_o0_360_S1024x180 : S1024x2880.Slices ![0, 360] S1024x180
  slices_S1024x2880_o0_540_S1024x180 : S1024x2880.Slices ![0, 540] S1024x180
  slices_S1024x2880_o0_720_S1024x180 : S1024x2880.Slices ![0, 720] S1024x180
  slices_S1024x2880_o0_900_S1024x180 : S1024x2880.Slices ![0, 900] S1024x180
  slices_S1024x2880_o0_1080_S1024x180 : S1024x2880.Slices ![0, 1080] S1024x180
  slices_S1024x2880_o0_1260_S1024x180 : S1024x2880.Slices ![0, 1260] S1024x180
  slices_S1024x2880_o0_1440_S1024x180 : S1024x2880.Slices ![0, 1440] S1024x180
  slices_S1024x2880_o0_1620_S1024x180 : S1024x2880.Slices ![0, 1620] S1024x180
  slices_S1024x2880_o0_1800_S1024x180 : S1024x2880.Slices ![0, 1800] S1024x180
  slices_S1024x2880_o0_1980_S1024x180 : S1024x2880.Slices ![0, 1980] S1024x180
  slices_S1024x2880_o0_2160_S1024x180 : S1024x2880.Slices ![0, 2160] S1024x180
  slices_S1024x2880_o0_2340_S1024x180 : S1024x2880.Slices ![0, 2340] S1024x180
  slices_S1024x2880_o0_2520_S1024x180 : S1024x2880.Slices ![0, 2520] S1024x180
  slices_S1024x2880_o0_2700_S1024x180 : S1024x2880.Slices ![0, 2700] S1024x180
  concatenates_S32x1_S32x1_S32x1_S32x1_S32x1_S32x1_S32x1_S32x1_S32x1_S32x1_S32x1_S32x1_S32x1_S32x1_S32x1_S32x1_S32x16_d1 : Shape.Concatenates [S32x1, S32x1, S32x1, S32x1, S32x1, S32x1, S32x1, S32x1, S32x1, S32x1, S32x1, S32x1, S32x1, S32x1, S32x1, S32x1] S32x16 1
  inb_S128x180x128_S16x180x128_16_0_0 : ∀ a, (![16, 0, 0] : Fin 3 → Nat) a + S16x180x128.size a ≤ S128x180x128.size a
  inb_S128x180_S16x180_16_0 : ∀ a, (![16, 0] : Fin 2 → Nat) a + S16x180.size a ≤ S128x180.size a
  inb_S128x180x128_S16x180x128_32_0_0 : ∀ a, (![32, 0, 0] : Fin 3 → Nat) a + S16x180x128.size a ≤ S128x180x128.size a
  inb_S128x180_S16x180_32_0 : ∀ a, (![32, 0] : Fin 2 → Nat) a + S16x180.size a ≤ S128x180.size a
  inb_S128x180x128_S16x180x128_48_0_0 : ∀ a, (![48, 0, 0] : Fin 3 → Nat) a + S16x180x128.size a ≤ S128x180x128.size a
  inb_S128x180_S16x180_48_0 : ∀ a, (![48, 0] : Fin 2 → Nat) a + S16x180.size a ≤ S128x180.size a
  inb_S128x180x128_S16x180x128_64_0_0 : ∀ a, (![64, 0, 0] : Fin 3 → Nat) a + S16x180x128.size a ≤ S128x180x128.size a
  inb_S128x180_S16x180_64_0 : ∀ a, (![64, 0] : Fin 2 → Nat) a + S16x180.size a ≤ S128x180.size a
  inb_S128x180x128_S16x180x128_80_0_0 : ∀ a, (![80, 0, 0] : Fin 3 → Nat) a + S16x180x128.size a ≤ S128x180x128.size a
  inb_S128x180_S16x180_80_0 : ∀ a, (![80, 0] : Fin 2 → Nat) a + S16x180.size a ≤ S128x180.size a
  inb_S128x180x128_S16x180x128_96_0_0 : ∀ a, (![96, 0, 0] : Fin 3 → Nat) a + S16x180x128.size a ≤ S128x180x128.size a
  inb_S128x180_S16x180_96_0 : ∀ a, (![96, 0] : Fin 2 → Nat) a + S16x180.size a ≤ S128x180.size a
  inb_S128x180x128_S16x180x128_112_0_0 : ∀ a, (![112, 0, 0] : Fin 3 → Nat) a + S16x180x128.size a ≤ S128x180x128.size a
  inb_S128x180_S16x180_112_0 : ∀ a, (![112, 0] : Fin 2 → Nat) a + S16x180.size a ≤ S128x180.size a
  concatenates_S32x16_S32x16_S32x16_S32x16_S32x16_S32x16_S32x16_S32x16_S32x128_d1 : Shape.Concatenates [S32x16, S32x16, S32x16, S32x16, S32x16, S32x16, S32x16, S32x16] S32x128 1
  inb_S32x128_S32x128_0_0 : ∀ a, (![0, 0] : Fin 2 → Nat) a + S32x128.size a ≤ S32x128.size a
  h_S32x128 : 0 < S32x128.numel
  dot_S1024x128_S2880x128_S1024x2880_1_1_0_0_n_n_wf : DotDims.WF S1024x128 S2880x128 S1024x2880 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32x128.size a ≤ S32x32x128.size a
  hwx0_0 : ∀ i : grid0.Coords, EltTy.bits .f32 = 32 ∨ (Rect.block (s := S32x32x128) S32x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x180x128.size a ≤ S512x180x128.size a
  hwx0_1 : ∀ i : grid0.Coords, EltTy.bits .f32 = 32 ∨ (Rect.block (s := S512x180x128) S128x180x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .i32 = 32 ∨ (Rect.block (s := S32x32) S32x32.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x180.size a ≤ S512x180.size a
  hwx0_3 : ∀ i : grid0.Coords, EltTy.bits .i32 = 32 ∨ (Rect.block (s := S512x180) S128x180.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x512.size a
  hwx0_4 : ∀ i : grid0.Coords, EltTy.bits .f32 = 32 ∨ (Rect.block (s := S32x512) S32x128.size (cc0_transform_4 i) (hinb0_4 i)).WholeWords (EltTy.packing .f32)

variable [Facts₀]

def dot_S1024x128_S2880x128_S1024x2880_1_1_0_0_n_n : DotDims S1024x128 S2880x128 S1024x2880 where
  lhsContracting := [1]
  rhsContracting := [1]
  lhsNonContracting := [0]
  rhsNonContracting := [0]
  lhsBatch := []
  rhsBatch := []
  wf := dot_S1024x128_S2880x128_S1024x2880_1_1_0_0_n_n_wf

abbrev win0_0 : Pipeline.Window sig grid0 :=
  Pipeline.Window.ofSpec (Memref.whole main_arg0) S32x32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x180x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x180.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x32x128 : Shape := ⟨3, ![32, 32, 128]⟩
abbrev S512x180x128 : Shape := ⟨3, ![512, 180, 128]⟩
abbrev S32x32 : Shape := ⟨2, ![32, 32]⟩
abbrev S512x180 : Shape := ⟨2, ![512, 180]⟩
abbrev S32x32x1 : Shape := ⟨3, ![32, 32, 1]⟩
abbrev S512x180x1 : Shape := ⟨3, ![512, 180, 1]⟩
abbrev S512x180x32x32 : Shape := ⟨4, ![512, 180, 32, 32]⟩
abbrev S32x512x32x180 : Shape := ⟨4, ![32, 512, 32, 180]⟩
abbrev S_ : Shape := ⟨0, ![]⟩
abbrev S32x512x32 : Shape := ⟨3, ![32, 512, 32]⟩
abbrev S32x512 : Shape := ⟨2, ![32, 512]⟩

abbrev nBuf : Space → Nat
  | .hbm => 18
  | .vmem => 0
  | .smem => 0
  | _ => 0

abbrev bufTy : (tb : Table) → Fin (tcTables nBuf tb) → BufTy
  | .hbm, ⟨0, _⟩ => ⟨S32x32x128, .f32⟩
  | .hbm, ⟨1, _⟩ => ⟨S512x180x128, .f32⟩
  | .hbm, ⟨2, _⟩ => ⟨S32x32, .i32⟩
  | .hbm, ⟨3, _⟩ => ⟨S512x180, .i32⟩
  | .hbm, ⟨4, _⟩ => ⟨S32x32, .f32⟩
  | .hbm, ⟨5, _⟩ => ⟨S32x32x1, .f32⟩
  | .hbm, ⟨6, _⟩ => ⟨S32x32x128, .f32⟩
  | .hbm, ⟨7, _⟩ => ⟨S32x32x128, .f32⟩
  | .hbm, ⟨8, _⟩ => ⟨S512x180, .f32⟩
  | .hbm, ⟨9, _⟩ => ⟨S512x180x1, .f32⟩
  | .hbm, ⟨10, _⟩ => ⟨S512x180x128, .f32⟩
  | .hbm, ⟨11, _⟩ => ⟨S512x180x128, .f32⟩
  | .hbm, ⟨12, _⟩ => ⟨S512x180x32x32, .f32⟩
  | .hbm, ⟨13, _⟩ => ⟨S32x512x32x180, .f32⟩
  | .hbm, ⟨14, _⟩ => ⟨S_, .f32⟩
  | .hbm, ⟨15, _⟩ => ⟨S32x512x32, .f32⟩
  | .hbm, ⟨16, _⟩ => ⟨S_, .f32⟩
  | .hbm, ⟨17, _⟩ => ⟨S32x512, .f32⟩
  | _, _ => ⟨S32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S32x32_S32x32x1_0_1 : S32x32.BroadcastsInDim S32x32x1 (![0, 1] : Fin 2 → Fin S32x32x1.rank)
  bcast_S32x32x1_S32x32x128_0_1_2 : S32x32x1.BroadcastsInDim S32x32x128 (![0, 1, 2] : Fin 3 → Fin S32x32x128.rank)
  bcast_S512x180_S512x180x1_0_1 : S512x180.BroadcastsInDim S512x180x1 (![0, 1] : Fin 2 → Fin S512x180x1.rank)
  bcast_S512x180x1_S512x180x128_0_1_2 : S512x180x1.BroadcastsInDim S512x180x128 (![0, 1, 2] : Fin 3 → Fin S512x180x128.rank)
  transposes_S512x180x32x32_S32x512x32x180_2_0_3_1 : S512x180x32x32.Transposes [2, 0, 3, 1] S32x512x32x180
  reducesTo_S32x512x32x180_S32x512x32_d3 : S32x512x32x180.ReducesTo [3] S32x512x32
  h_S_ : 0 < S_.numel
  reducesTo_S32x512x32_S32x512_d2 : S32x512x32.ReducesTo [2] S32x512
  dot_S512x180x128_S32x32x128_S512x180x32x32_2_2_01_01_n_n_wf : DotDims.WF S512x180x128 S32x32x128 S512x180x32x32 [2] [2] [0, 1] [0, 1] [] []

variable [Facts₀]

def dot_S512x180x128_S32x32x128_S512x180x32x32_2_2_01_01_n_n : DotDims S512x180x128 S32x32x128 S512x180x32x32 where
  lhsContracting := [2]
  rhsContracting := [2]
  lhsNonContracting := [0, 1]
  rhsNonContracting := [0, 1]
  lhsBatch := []
  rhsBatch := []
  wf := dot_S512x180x128_S32x32x128_S512x180x32x32_2_2_01_01_n_n_wf

class Facts : Prop extends Facts₀ where

variable [Facts]
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«106990_j44521630991138_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.DocColumn.lean ====
/-
  One document's column of scores inside a chunk of sixteen documents, and the chunk's block of sixteen columns.

  A chunk's similarity array `sim` has a row for each (query q, query token m) pair, at row 32 q + m, and a lane for each
  (document j of the chunk, document token n) pair, at lane 180 j + n.  The score of query q against document j is

      sum over m of  max over n of  sim (32 q + m, 180 j + n).

  The program computes it one document at a time: it cuts the 180 lanes of document j out of `sim`, takes the maximum
  along the lanes (from minus infinity), re-lays the 1024 maxima as a [32, 32] array (q, m), adds along m (from zero) and
  keeps the 32 sums as a [32, 1] column; sixteen such columns laid side by side are the chunk's [32, 16] block.
-/
import proofs.«106990_j44521630991138_2_alg».proof.Proof.Gen.KernelIdeal
import proofs.«106990_j44521630991138_2_alg».proof.Proof.LibRowReduceProducts
import Idealize.ShloMosaic.Lib.Pipeline.Value
import Idealize.ShloMosaic.Lib.ValueIdx
import Idealize.ShloMosaic.PureOps.Ideal.Laws

noncomputable section

open scoped BigOperators

namespace Cert.KernelIdeal.MaxSim

open Idealize.ShloMosaic Idealize.ShloMosaic.ValueIdx Cert.KernelIdeal Cert.KernelIdeal.Gen

/-- The 180 lanes of document `j` of a chunk lie inside the chunk's 2880 lanes. -/
theorem slices_doc (j : Fin 16) : S1024x2880.Slices ![0, 180 * j.val] S1024x180 :=
  ⟨rfl, fun a => by
    have hj := j.isLt
    match a with
    | ⟨0, _⟩ => show 0 + 1024 ≤ 1024; omega
    | ⟨1, _⟩ => show 180 * j.val + 180 ≤ 2880; omega⟩

/-- The sum over the query tokens of the maximum over document `j`'s tokens, as the program computes it from a chunk's
    similarity array: a [32, 1] column, one entry per query. -/
def docColumn (sim : FVec Ideal S1024x2880 .f32) (j : Fin 16) : FVec Ideal S32x1 .f32 :=
  shapeCast S32x1 (multiReduction .add [1] S32 (shapeCast S32x32 (shapeCast S1024x1
    (multiReduction .maximumf [1] S1024 (extractStridedSlice S1024x180 ![0, 180 * j.val] sim (slices_doc j))
      0xFF800000#32 reduces_S1024x180_S1024 (.inl rfl) rfl) shapeCasts_S1024_S1024x1) shapeCasts_S1024x1_S32x32)
    0x00000000#32 reduces_S32x32_S32 (.inl rfl) rfl) shapeCasts_S32_S32x1

/-- The column at query `q`: the sum over the query tokens `m` of the supremum over the document's tokens `k`. -/
theorem docColumn_apply (sim : FVec Ideal S1024x2880 .f32) (j : Fin 16) (q : Fin 32) (u : Fin 1) :
    docColumn sim j (ix2 q u) = ∑ m : Fin 32, Finset.univ.sup fun k : Fin 180 =>
      sim (ix2 (⟨32 * q.val + m.val, by have := q.isLt; have := m.isLt; omega⟩ : Fin 1024)
        (⟨180 * j.val + k.val, by have := j.isLt; have := k.isLt; omega⟩ : Fin 2880)) := by
  have hu : u.val = 0 := by have := u.isLt; omega
  have hq := q.isLt
  unfold docColumn
  -- the [32] sums kept as a [32, 1] column
  refine (shapeCast_apply _ shapeCasts_S32_S32x1 (ix2 q u) (ix1 q) ?_).trans ?_
  · rw [Shape.rowMajor_val_one, Shape.rowMajor_val_two]
    show q.val = q.val * 1 + u.val
    omega
  -- the sum along the query tokens
  refine (Cert.LibRowReduceProducts.rowSum_apply _ reduces_S32x32_S32 (.inl rfl) rfl q).trans ?_
  refine Finset.sum_congr rfl fun m _ => ?_
  have hm := m.isLt
  -- the 1024 maxima re-laid as (q, m): entry (q, m) is maximum number 32 q + m
  refine (shapeCast_apply _ shapeCasts_S1024x1_S32x32 (ix2 q m)
    (ix2 (⟨32 * q.val + m.val, by omega⟩ : Fin 1024) (0 : Fin 1)) ?_).trans ?_
  · rw [Shape.rowMajor_val_two, Shape.rowMajor_val_two]
    show (32 * q.val + m.val) * 1 + 0 = q.val * 32 + m.val
    omega
  refine (shapeCast_apply _ shapeCasts_S1024_S1024x1 (ix2 (⟨32 * q.val + m.val, by omega⟩ : Fin 1024) (0 : Fin 1))
    (ix1 (⟨32 * q.val + m.val, by omega⟩ : Fin 1024)) ?_).trans ?_
  · rw [Shape.rowMajor_val_one, Shape.rowMajor_val_two]
    show 32 * q.val + m.val = (32 * q.val + m.val) * 1 + 0
    omega
  -- the maximum along the document's 180 lanes
  refine (Cert.LibRowReduceProducts.rowMax_apply _ reduces_S1024x180_S1024 (.inl rfl) rfl _).trans ?_
  refine congrArg (Finset.univ.sup) (funext fun k => ?_)
  -- the document's lanes inside the chunk's
  refine extractStridedSlice_apply _ sim (slices_doc j) _ _ fun a => ?_
  match a with
  | ⟨0, _⟩ => show 32 * q.val + m.val = 0 + (32 * q.val + m.val); omega
  | ⟨1, _⟩ => rfl

/-- Sixteen documents' columns side by side: entry (q, j) of the chunk's block is document `j`'s column at `q`. -/
theorem chunkBlock_apply (sim : FVec Ideal S1024x2880 .f32)
    (h : Shape.Concatenates ((List.ofFn fun j : Fin 16 =>
      (⟨S32x1, docColumn sim j⟩ : (s : Shape) × (s.Idx → Ideal .f32))).map (·.1)) S32x16 1)
    (q : Fin 32) (j : Fin 16) :
    concatenate S32x16 1 (List.ofFn fun j : Fin 16 =>
      (⟨S32x1, docColumn sim j⟩ : (s : Shape) × (s.Idx → Ideal .f32))) h (ix2 q j)
      = ∑ m : Fin 32, Finset.univ.sup fun k : Fin 180 =>
        sim (ix2 (⟨32 * q.val + m.val, by have := q.isLt; have := m.isLt; omega⟩ : Fin 1024)
          (⟨180 * j.val + k.val, by have := j.isLt; have := k.isLt; omega⟩ : Fin 2880)) := by
  refine (concatenate_ofFn_apply (t := S32x16) (s₁ := S32x1) (1 : Fin 2) (docColumn sim) h rfl 1 rfl (ix2 q j) j
    (by show j.val / 1 = j.val; omega) (ix2 q (0 : Fin 1)) (by show 0 = j.val % 1; omega) (fun b hb => by
      match b with
      | ⟨0, _⟩ => rfl
      | ⟨1, _⟩ => exact absurd rfl hb)).trans ?_
  exact docColumn_apply sim j q 0

end Cert.KernelIdeal.MaxSim

end
-- ==== Proof.ChunkSim.lean ====
/-
  A chunk's similarity array at an index.

  The query side: the [32, 32, 128] query array (query q, token m, feature h), each token's features multiplied by the token's
  mask word turned into a number, laid out as 1024 rows of 128 features, row 32 q + m.  The document side: a chunk of sixteen
  documents, [16, 180, 128] (document j, token n, feature h), masked the same way, laid out as 2880 rows, row 180 j + n.  The
  similarity array is the product of the first with the transpose of the second:

      sim (32 q + m, 180 j + n) = sum over h of (Q (q, m, h) * mask (q, m)) * (D (j, n, h) * mask (j, n)).

  A change of float format is the identity on the extended reals, so the roundings to the narrow format before the product
  do not appear.
-/
import proofs.«106990_j44521630991138_2_alg».proof.Proof.Gen.KernelIdeal.Skeleton
import proofs.«106990_j44521630991138_2_alg».proof.Proof.LibRowReduceProducts
import Idealize.ShloMosaic.Lib.Pipeline.Value
import Idealize.ShloMosaic.Lib.ValueIdx
import Idealize.ShloMosaic.PureOps.Ideal.Laws

noncomputable section

open scoped BigOperators

namespace Cert.KernelIdeal.MaxSim

open Idealize.ShloMosaic Idealize.ShloMosaic.ValueIdx Cert.KernelIdeal Cert.KernelIdeal.Gen

/-- Row 32 q + m of the masked query rows: token (q, m)'s features times its mask. -/
theorem queryRows_apply (x0 : Vec Ideal S32x32x128 .f32) (x2 : Vec Ideal S32x32 .i32) (q m : Fin 32) (h : Fin 128) :
    k0_pay3 (F := Ideal) x0 x2 (ix2 (⟨32 * q.val + m.val, by have := q.isLt; have := m.isLt; omega⟩ : Fin 1024) h)
      = x0 (ix3 q m h) * FloatOps.sitofp (F := Ideal) .f32 (x2 (ix2 q m)) := by
  have hq := q.isLt
  have hm := m.isLt
  unfold k0_pay3
  show shapeCast S1024x128 (mulf (F := Ideal) x0 (broadcastTo S32x32x128 (shapeCast S32x32x1 (sitofp (F := Ideal) .f32 x2)
    shapeCasts_S32x32_S32x32x1) broadcasts_S32x32x1_S32x32x128)) shapeCasts_S32x32x128_S1024x128
      (ix2 (⟨32 * q.val + m.val, by omega⟩ : Fin 1024) h) = _
  refine (shapeCast_apply _ shapeCasts_S32x32x128_S1024x128 _ (ix3 q m h) ?_).trans ?_
  · rw [Shape.rowMajor_val_three, Shape.rowMajor_val_two]
    show (q.val * 32 + m.val) * 128 + h.val = (32 * q.val + m.val) * 128 + h.val
    omega
  refine congrArg (x0 (ix3 q m h) * ·) ?_
  refine (broadcastTo_apply _ broadcasts_S32x32x1_S32x32x128 (ix3 q m h) (ix3 q m (0 : Fin 1)) fun a => ?_).trans ?_
  · match a with
    | ⟨0, _⟩ => show q.val = if (32 : Nat) = 1 then 0 else q.val; rw [if_neg (by decide)]
    | ⟨1, _⟩ => show m.val = if (32 : Nat) = 1 then 0 else m.val; rw [if_neg (by decide)]
    | ⟨2, _⟩ => show 0 = if (1 : Nat) = 1 then 0 else h.val; rw [if_pos rfl]
  refine (shapeCast_apply _ shapeCasts_S32x32_S32x32x1 (ix3 q m (0 : Fin 1)) (ix2 q m) ?_).trans rfl
  rw [Shape.rowMajor_val_three, Shape.rowMajor_val_two]
  show q.val * 32 + m.val = (q.val * 32 + m.val) * 1 + 0
  omega

/-- Row 180 j + n of a chunk's masked document rows: token (j, n)'s features times its mask. -/
theorem docRows_apply (d : Vec Ideal S16x180x128 .f32) (dm : Vec Ideal S16x180 .i32) (j : Fin 16) (n : Fin 180) (h : Fin 128) :
    shapeCast S2880x128 (mulf (F := Ideal) d (broadcastTo S16x180x128 (shapeCast S16x180x1 (sitofp (F := Ideal) .f32 dm)
      shapeCasts_S16x180_S16x180x1) broadcasts_S16x180x1_S16x180x128)) shapeCasts_S16x180x128_S2880x128
        (ix2 (⟨180 * j.val + n.val, by have := j.isLt; have := n.isLt; omega⟩ : Fin 2880) h)
      = d (ix3 j n h) * FloatOps.sitofp (F := Ideal) .f32 (dm (ix2 j n)) := by
  have hj := j.isLt
  have hn := n.isLt
  refine (shapeCast_apply _ shapeCasts_S16x180x128_S2880x128 _ (ix3 j n h) ?_).trans ?_
  · rw [Shape.rowMajor_val_three, Shape.rowMajor_val_two]
    show (j.val * 180 + n.val) * 128 + h.val = (180 * j.val + n.val) * 128 + h.val
    omega
  refine congrArg (d (ix3 j n h) * ·) ?_
  refine (broadcastTo_apply _ broadcasts_S16x180x1_S16x180x128 (ix3 j n h) (ix3 j n (0 : Fin 1)) fun a => ?_).trans ?_
  · match a with
    | ⟨0, _⟩ => show j.val = if (16 : Nat) = 1 then 0 else j.val; rw [if_neg (by decide)]
    | ⟨1, _⟩ => show n.val = if (180 : Nat) = 1 then 0 else n.val; rw [if_neg (by decide)]
    | ⟨2, _⟩ => show 0 = if (1 : Nat) = 1 then 0 else h.val; rw [if_pos rfl]
  refine (shapeCast_apply _ shapeCasts_S16x180_S16x180x1 (ix3 j n (0 : Fin 1)) (ix2 j n) ?_).trans rfl
  rw [Shape.rowMajor_val_three, Shape.rowMajor_val_two]
  show j.val * 180 + n.val = (j.val * 180 + n.val) * 1 + 0
  omega

/-- A chunk's similarity array: the masked query rows against the chunk's masked document rows. -/
def chunkSim (x0 : Vec Ideal S32x32x128 .f32) (x2 : Vec Ideal S32x32 .i32) (d : Vec Ideal S16x180x128 .f32)
    (dm : Vec Ideal S16x180 .i32) : FVec Ideal S1024x2880 .f32 :=
  k0_pay19 (k0_pay3 x0 x2) d dm

/-- Its entry for query token (q, m) and document token (j, n): the masked feature vectors' inner product. -/
theorem chunkSim_apply (x0 : Vec Ideal S32x32x128 .f32) (x2 : Vec Ideal S32x32 .i32) (d : Vec Ideal S16x180x128 .f32)
    (dm : Vec Ideal S16x180 .i32) (q m : Fin 32) (j : Fin 16) (n : Fin 180) :
    chunkSim x0 x2 d dm (ix2 (⟨32 * q.val + m.val, by have := q.isLt; have := m.isLt; omega⟩ : Fin 1024)
        (⟨180 * j.val + n.val, by have := j.isLt; have := n.isLt; omega⟩ : Fin 2880))
      = ∑ h : Fin 128, (x0 (ix3 q m h) * FloatOps.sitofp (F := Ideal) .f32 (x2 (ix2 q m)))
          * (d (ix3 j n h) * FloatOps.sitofp (F := Ideal) .f32 (dm (ix2 j n))) := by
  unfold chunkSim k0_pay19
  refine (Cert.LibRowReduceProducts.matmulNT dot_S1024x128_S2880x128_S1024x2880_1_1_0_0_n_n rfl rfl rfl rfl rfl rfl
    none _ _ _ _).trans ?_
  refine Finset.sum_congr rfl fun h _ => ?_
  exact congrArg₂ (fun a b : EReal => a * b) (queryRows_apply x0 x2 q m h) (docRows_apply d dm j n h)

end Cert.KernelIdeal.MaxSim

end
-- ==== Proof.Spec.lean ====
/-
  The late-interaction score of a query against a document.

  A query is 32 token vectors of 128 features, a document 180 token vectors of 128 features; a mask word per token, turned
  into a number, multiplies the token's features.  The score is, over the query's tokens m, the sum of the largest inner
  product of token m with a token n of the document:

      score (q, d) = sum over m of  max over n of  sum over h of (Q (q, m, h) * qmask (q, m)) * (D (d, n, h) * dmask (d, n)),

  read on the extended reals, the maximum as the supremum over the 180 tokens (started from minus infinity).  The number of
  documents N is a parameter: the same formula is used for a chunk of 16, a block of 128 and the whole array of 512.
-/
import Idealize.ShloMosaic.PureOps.Ideal
import Idealize.ShloMosaic.Lib.ValueIdx

noncomputable section

open scoped BigOperators

namespace Cert.MaxSimSpec

open Idealize.ShloMosaic Idealize.ShloMosaic.ValueIdx

/-- The score of query `q` against document `d`. -/
def score {N : ℕ} (Q : (⟨3, ![32, 32, 128]⟩ : Shape).Idx → EReal) (qm : (⟨2, ![32, 32]⟩ : Shape).Idx → BitVec 32)
    (D : (⟨3, ![N, 180, 128]⟩ : Shape).Idx → EReal) (dm : (⟨2, ![N, 180]⟩ : Shape).Idx → BitVec 32)
    (q : Fin 32) (d : Fin N) : EReal :=
  ∑ m : Fin 32, Finset.univ.sup fun n : Fin 180 => ∑ h : Fin 128,
    (Q (ix3 q m h) * FloatOps.sitofp (F := Ideal) .f32 (qm (ix2 q m)))
      * (D (ix3 d n h) * FloatOps.sitofp (F := Ideal) .f32 (dm (ix2 d n)))

/-- The [32, N] array of all the scores. -/
def scores {N : ℕ} (Q : (⟨3, ![32, 32, 128]⟩ : Shape).Idx → EReal) (qm : (⟨2, ![32, 32]⟩ : Shape).Idx → BitVec 32)
    (D : (⟨3, ![N, 180, 128]⟩ : Shape).Idx → EReal) (dm : (⟨2, ![N, 180]⟩ : Shape).Idx → BitVec 32) :
    (⟨2, ![32, N]⟩ : Shape).Idx → EReal :=
  fun i => score Q qm D dm (i 0) (i 1)

theorem scores_apply {N : ℕ} (Q : (⟨3, ![32, 32, 128]⟩ : Shape).Idx → EReal) (qm : (⟨2, ![32, 32]⟩ : Shape).Idx → BitVec 32)
    (D : (⟨3, ![N, 180, 128]⟩ : Shape).Idx → EReal) (dm : (⟨2, ![N, 180]⟩ : Shape).Idx → BitVec 32) (q : Fin 32) (d : Fin N) :
    scores Q qm D dm (ix2 q d) = score Q qm D dm q d := rfl

end Cert.MaxSimSpec

end
-- ==== Proof.Block.lean ====
/-
  What the body leaves in the output block, as one function of the four input blocks.

  At a grid point the body sees the whole query array and query mask, and a block of 128 documents with their mask.  It walks
  the block in eight chunks of sixteen documents (rows 16 g … 16 g + 15 of the block); for each chunk it forms the similarity
  array, reduces it to a [32, 16] block of scores, and lays the eight blocks side by side.  So entry (q, 16 g + j) of the
  output block is chunk g's score of query q against its document j — and, read on the block's own rows, simply the score of
  query q against document 16 g + j of the block.
-/
import proofs.«106990_j44521630991138_2_alg».proof.Proof.Gen.KernelIdeal.Value
import proofs.«106990_j44521630991138_2_alg».proof.Proof.DocColumn
import proofs.«106990_j44521630991138_2_alg».proof.Proof.ChunkSim
import proofs.«106990_j44521630991138_2_alg».proof.Proof.Spec

noncomputable section

open scoped BigOperators

namespace Cert.KernelIdeal.MaxSim

open Idealize.ShloMosaic Idealize.ShloMosaic.ValueIdx Cert.KernelIdeal Cert.KernelIdeal.Gen Cert.MaxSimSpec

/-- The body's load of the whole query block reads it. -/
theorem ld_query (x0 : Vec Ideal S32x32x128 .f32) (q m : Fin 32) (h : Fin 128) :
    View.ld x0 r0_0 (ix3 q m h) = x0 (ix3 q m h) :=
  congrArg x0 (funext fun a => Fin.ext (by
    match a with
    | ⟨0, _⟩ => show 0 + 1 * q.val = q.val; omega
    | ⟨1, _⟩ => show 0 + 1 * m.val = m.val; omega
    | ⟨2, _⟩ => show 0 + 1 * h.val = h.val; omega))

/-- The body's load of the whole query mask reads it. -/
theorem ld_queryMask (x2 : Vec Ideal S32x32 .i32) (q m : Fin 32) :
    View.ld x2 r0_1 (ix2 q m) = x2 (ix2 q m) :=
  congrArg x2 (funext fun a => Fin.ext (by
    match a with
    | ⟨0, _⟩ => show 0 + 1 * q.val = q.val; omega
    | ⟨1, _⟩ => show 0 + 1 * m.val = m.val; omega))

/-- A load of sixteen documents from row `o` of the block reads rows `o … o + 15`. -/
theorem ld_docs (x1 : Vec Ideal S128x180x128 .f32) (o : ℕ) (ho : o + 16 ≤ 128)
    (inb : ∀ a, (![o, 0, 0] : Fin 3 → Nat) a + S16x180x128.size a ≤ S128x180x128.size a)
    (j : Fin 16) (k : Fin 180) (h : Fin 128) :
    View.ld x1 (Rect.unit (s := S128x180x128) ![o, 0, 0] S16x180x128.size inb) (ix3 j k h)
      = x1 (ix3 (⟨o + j.val, by have := j.isLt; omega⟩ : Fin 128) k h) :=
  congrArg x1 (funext fun a => Fin.ext (by
    match a with
    | ⟨0, _⟩ => show o + 1 * j.val = o + j.val; omega
    | ⟨1, _⟩ => show 0 + 1 * k.val = k.val; omega
    | ⟨2, _⟩ => show 0 + 1 * h.val = h.val; omega))

/-- The same for their mask rows. -/
theorem ld_docMask (x3 : Vec Ideal S128x180 .i32) (o : ℕ) (ho : o + 16 ≤ 128)
    (inb : ∀ a, (![o, 0] : Fin 2 → Nat) a + S16x180.size a ≤ S128x180.size a) (j : Fin 16) (k : Fin 180) :
    View.ld x3 (Rect.unit (s := S128x180) ![o, 0] S16x180.size inb) (ix2 j k)
      = x3 (ix2 (⟨o + j.val, by have := j.isLt; omega⟩ : Fin 128) k) :=
  congrArg x3 (funext fun a => Fin.ext (by
    match a with
    | ⟨0, _⟩ => show o + 1 * j.val = o + j.val; omega
    | ⟨1, _⟩ => show 0 + 1 * k.val = k.val; omega))

/-- One chunk's block of scores, when the chunk's four operands are the whole query side and rows `o … o + 15` of the
    document side: entry (q, j) is the score of query `q` against document `o + j` of the block. -/
theorem chunk_of_block (x0 : Vec Ideal S32x32x128 .f32) (x1 : Vec Ideal S128x180x128 .f32) (x2 : Vec Ideal S32x32 .i32)
    (x3 : Vec Ideal S128x180 .i32) (P0 : Vec Ideal S32x32x128 .f32) (P1 : Vec Ideal S32x32 .i32)
    (Pd : Vec Ideal S16x180x128 .f32) (Pm : Vec Ideal S16x180 .i32) (o : ℕ) (ho : o + 16 ≤ 128)
    (h0 : ∀ (q m : Fin 32) (h : Fin 128), P0 (ix3 q m h) = x0 (ix3 q m h))
    (h1 : ∀ q m : Fin 32, P1 (ix2 q m) = x2 (ix2 q m))
    (hd : ∀ (j : Fin 16) (k : Fin 180) (h : Fin 128),
      Pd (ix3 j k h) = x1 (ix3 (⟨o + j.val, by have := j.isLt; omega⟩ : Fin 128) k h))
    (hm : ∀ (j : Fin 16) (k : Fin 180), Pm (ix2 j k) = x3 (ix2 (⟨o + j.val, by have := j.isLt; omega⟩ : Fin 128) k))
    (hcat : Shape.Concatenates ((List.ofFn fun j : Fin 16 =>
      (⟨S32x1, docColumn (chunkSim P0 P1 Pd Pm) j⟩ : (s : Shape) × (s.Idx → Ideal .f32))).map (·.1)) S32x16 1)
    (q : Fin 32) (j : Fin 16) :
    concatenate S32x16 1 (List.ofFn fun j : Fin 16 =>
      (⟨S32x1, docColumn (chunkSim P0 P1 Pd Pm) j⟩ : (s : Shape) × (s.Idx → Ideal .f32))) hcat (ix2 q j)
      = score (N := 128) x0 x2 x1 x3 q (⟨o + j.val, by have := j.isLt; omega⟩ : Fin 128) := by
  refine (chunkBlock_apply (chunkSim P0 P1 Pd Pm) hcat q j).trans ?_
  unfold score
  refine Finset.sum_congr rfl fun m _ => congrArg (Finset.univ.sup) (funext fun k => ?_)
  refine (chunkSim_apply P0 P1 Pd Pm q m j k).trans ?_
  refine Finset.sum_congr rfl fun h _ => ?_
  rw [h0 q m h, h1 q m, hd j k h, hm j k]

/-- Entry (q, 16 g + j) of what the body stores is the score of query `q` against document 16 g + j of the block. -/
theorem out_chunk_apply (x0 : Vec Ideal S32x32x128 .f32) (x1 : Vec Ideal S128x180x128 .f32) (x2 : Vec Ideal S32x32 .i32)
    (x3 : Vec Ideal S128x180 .i32) (q : Fin 32) (g : Fin 8) (j : Fin 16) :
    out0_4 x0 x1 x2 x3 (ix2 q (⟨16 * g.val + j.val, by have := g.isLt; have := j.isLt; omega⟩ : Fin 128))
      = score (N := 128) x0 x2 x1 x3 q (⟨16 * g.val + j.val, by have := g.isLt; have := j.isLt; omega⟩ : Fin 128) := by
  have hg := g.isLt
  have hj := j.isLt
  unfold out0_4
  refine (Value.canon4_eq _ _ _ _ _ _ _ _ _ _ _ _ _ _ _ _ _ _ _).trans ?_
  have hsel : Value.csel4_0 (ix2 q (⟨16 * g.val + j.val, by omega⟩ : Fin 128)) = g :=
    Fin.ext (by show (16 * g.val + j.val) / 16 = g.val; omega)
  have hix : Value.ix4_0 (ix2 q (⟨16 * g.val + j.val, by omega⟩ : Fin 128)) = ix2 q j :=
    funext fun a => Fin.ext (by
      match a with
      | ⟨0, _⟩ => rfl
      | ⟨1, _⟩ => show (16 * g.val + j.val) % 16 = j.val; omega)
  show Value.Cat4_0 _ _ _ _ _ _ _ _ _ _ _ _ _ _ _ _ _ _ (Value.csel4_0 _) (Value.ix4_0 _) = _
  rw [hsel, hix]
  match g with
  | ⟨0, _⟩ => exact chunk_of_block x0 x1 x2 x3 _ _ _ _ 0 (by omega) (ld_query x0) (ld_queryMask x2) (ld_docs x1 0 (by omega) _) (ld_docMask x3 0 (by omega) _) _ q j
  | ⟨1, _⟩ => exact chunk_of_block x0 x1 x2 x3 _ _ _ _ 16 (by omega) (ld_query x0) (ld_queryMask x2) (ld_docs x1 16 (by omega) _) (ld_docMask x3 16 (by omega) _) _ q j
  | ⟨2, _⟩ => exact chunk_of_block x0 x1 x2 x3 _ _ _ _ 32 (by omega) (ld_query x0) (ld_queryMask x2) (ld_docs x1 32 (by omega) _) (ld_docMask x3 32 (by omega) _) _ q j
  | ⟨3, _⟩ => exact chunk_of_block x0 x1 x2 x3 _ _ _ _ 48 (by omega) (ld_query x0) (ld_queryMask x2) (ld_docs x1 48 (by omega) _) (ld_docMask x3 48 (by omega) _) _ q j
  | ⟨4, _⟩ => exact chunk_of_block x0 x1 x2 x3 _ _ _ _ 64 (by omega) (ld_query x0) (ld_queryMask x2) (ld_docs x1 64 (by omega) _) (ld_docMask x3 64 (by omega) _) _ q j
  | ⟨5, _⟩ => exact chunk_of_block x0 x1 x2 x3 _ _ _ _ 80 (by omega) (ld_query x0) (ld_queryMask x2) (ld_docs x1 80 (by omega) _) (ld_docMask x3 80 (by omega) _) _ q j
  | ⟨6, _⟩ => exact chunk_of_block x0 x1 x2 x3 _ _ _ _ 96 (by omega) (ld_query x0) (ld_queryMask x2) (ld_docs x1 96 (by omega) _) (ld_docMask x3 96 (by omega) _) _ q j
  | ⟨7, _⟩ => exact chunk_of_block x0 x1 x2 x3 _ _ _ _ 112 (by omega) (ld_query x0) (ld_queryMask x2) (ld_docs x1 112 (by omega) _) (ld_docMask x3 112 (by omega) _) _ q j

/-- THE OUTPUT BLOCK: entry (q, c) of what the body stores is the score of query `q` against document `c` of the block
    (document `c` is number `c % 16` of chunk `c / 16`). -/
theorem out_apply (x0 : Vec Ideal S32x32x128 .f32) (x1 : Vec Ideal S128x180x128 .f32) (x2 : Vec Ideal S32x32 .i32)
    (x3 : Vec Ideal S128x180 .i32) (q : Fin 32) (c : Fin 128) :
    out0_4 x0 x1 x2 x3 (ix2 q c) = score (N := 128) x0 x2 x1 x3 q c := by
  have hc := c.isLt
  have e : (⟨16 * (⟨c.val / 16, by omega⟩ : Fin 8).val + (⟨c.val % 16, by omega⟩ : Fin 16).val,
      by show 16 * (c.val / 16) + c.val % 16 < 128; omega⟩ : Fin 128) = c :=
    Fin.ext (by show 16 * (c.val / 16) + c.val % 16 = c.val; omega)
  have h := out_chunk_apply x0 x1 x2 x3 q ⟨c.val / 16, by omega⟩ ⟨c.val % 16, by omega⟩
  rwa [e] at h

end Cert.KernelIdeal.MaxSim

end
-- ==== Proof.ScoreArray.lean ====
/-
  From the four grid points' blocks to the whole array of scores.

  Point t of the grid stages the whole query array and query mask, documents 128 t … 128 t + 127 with their mask rows, and
  writes back columns 128 t … 128 t + 127 of the [32, 512] result.  What it writes at (q, c) is the score of query q against
  document c of its block, which is document 128 t + c of the array: so block t of the result is block t of the array of all
  scores, the four blocks tile the result, and the result ends holding the scores of the arguments as launched.
-/
import proofs.«106990_j44521630991138_2_alg».proof.Proof.Gen.KernelIdeal.Value
import proofs.«106990_j44521630991138_2_alg».proof.Proof.Block
import Idealize.ShloMosaic.Lib.Pipeline.Value

noncomputable section

open scoped BigOperators

namespace Cert.KernelIdeal.MaxSim

open Idealize.ShloMosaic Idealize.ShloMosaic.TcCoe Idealize.ShloMosaic.ValueIdx Idealize.SL.Sem
open Cert.KernelIdeal Cert.KernelIdeal.Gen Cert.MaxSimSpec
open Idealize.ShloMosaic.Pipeline (Dat)

variable (m : (ℓ : Loc nD τ sig) → Buf (Elt Ideal) ℓ) (ρ : Dev nD → PrngReg)

/-- Where each window's block sits at grid point `t`: the query side never moves, the document side and the result move
    with `t` along the documents (decided over the four points). -/
theorem idx_facts : ∀ t : Fin cfg0.N,
    win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

theorem point_lt (t : Fin cfg0.N) : t.val < 4 := lt_of_lt_of_eq t.isLt N_0

/-- The result: the scores of the arguments as the region finds them. -/
abbrev result (c : Dev nD) : S32x512.Idx → EReal :=
  scores (N := 512) (V m c main_arg0) (V m c main_arg2) (V m c main_arg1) (V m c main_arg3)

/-- The query block at any point is the whole query array. -/
theorem queryBlock_apply (c : Dev nD) (t : Fin cfg0.N) (q mm : Fin 32) (h : Fin 128) :
    (iblk m c 0 t : Vec Ideal S32x32x128 .f32) (ix3 q mm h) = (V m c main_arg0 : S32x32x128.Idx → EReal) (ix3 q mm h) := by
  obtain ⟨a0, a1, a2, -⟩ := idx_facts t
  show V m c main_arg0 (((cfg0.win 0).blk t).view.emb (ix3 q mm h)) = V m c main_arg0 (ix3 q mm h)
  refine congrArg (V m c main_arg0) (funext fun a => Fin.ext ?_)
  match a with
  | ⟨0, _⟩ => show win0_0.index t (0 : Fin 3) * 32 + 1 * q.val = q.val; rw [a0]; omega
  | ⟨1, _⟩ => show win0_0.index t (1 : Fin 3) * 32 + 1 * mm.val = mm.val; rw [a1]; omega
  | ⟨2, _⟩ => show win0_0.index t (2 : Fin 3) * 128 + 1 * h.val = h.val; rw [a2]; omega

/-- The query-mask block at any point is the whole query mask. -/
theorem queryMaskBlock_apply (c : Dev nD) (t : Fin cfg0.N) (q mm : Fin 32) :
    (iblk m c 2 t : Vec Ideal S32x32 .i32) (ix2 q mm) = (V m c main_arg2 : S32x32.Idx → BitVec 32) (ix2 q mm) := by
  obtain ⟨-, -, -, -, -, -, c0, c1, -⟩ := idx_facts t
  show V m c main_arg2 (((cfg0.win 2).blk t).view.emb (ix2 q mm)) = V m c main_arg2 (ix2 q mm)
  refine congrArg (V m c main_arg2) (funext fun a => Fin.ext ?_)
  match a with
  | ⟨0, _⟩ => show win0_2.index t (0 : Fin 2) * 32 + 1 * q.val = q.val; rw [c0]; omega
  | ⟨1, _⟩ => show win0_2.index t (1 : Fin 2) * 32 + 1 * mm.val = mm.val; rw [c1]; omega

/-- The document block at point `t` is documents 128 t … 128 t + 127. -/
theorem docBlock_apply (c : Dev nD) (t : Fin cfg0.N) (j : Fin 128) (k : Fin 180) (h : Fin 128) :
    (iblk m c 1 t : Vec Ideal S128x180x128 .f32) (ix3 j k h)
      = (V m c main_arg1 : S512x180x128.Idx → EReal)
          (ix3 (⟨128 * t.val + j.val, by have := point_lt t; have := j.isLt; omega⟩ : Fin 512) k h) := by
  obtain ⟨-, -, -, b0, b1, b2, -⟩ := idx_facts t
  show V m c main_arg1 (((cfg0.win 1).blk t).view.emb (ix3 j k h)) = V m c main_arg1 _
  refine congrArg (V m c main_arg1) (funext fun a => Fin.ext ?_)
  match a with
  | ⟨0, _⟩ => show win0_1.index t (0 : Fin 3) * 128 + 1 * j.val = 128 * t.val + j.val; rw [b0]; omega
  | ⟨1, _⟩ => show win0_1.index t (1 : Fin 3) * 180 + 1 * k.val = k.val; rw [b1]; omega
  | ⟨2, _⟩ => show win0_1.index t (2 : Fin 3) * 128 + 1 * h.val = h.val; rw [b2]; omega

/-- The document-mask block at point `t` is mask rows 128 t … 128 t + 127. -/
theorem docMaskBlock_apply (c : Dev nD) (t : Fin cfg0.N) (j : Fin 128) (k : Fin 180) :
    (iblk m c 3 t : Vec Ideal S128x180 .i32) (ix2 j k)
      = (V m c main_arg3 : S512x180.Idx → BitVec 32)
          (ix2 (⟨128 * t.val + j.val, by have := point_lt t; have := j.isLt; omega⟩ : Fin 512) k) := by
  obtain ⟨-, -, -, -, -, -, -, -, d0, d1, -⟩ := idx_facts t
  show V m c main_arg3 (((cfg0.win 3).blk t).view.emb (ix2 j k)) = V m c main_arg3 _
  refine congrArg (V m c main_arg3) (funext fun a => Fin.ext ?_)
  match a with
  | ⟨0, _⟩ => show win0_3.index t (0 : Fin 2) * 128 + 1 * j.val = 128 * t.val + j.val; rw [d0]; omega
  | ⟨1, _⟩ => show win0_3.index t (1 : Fin 2) * 180 + 1 * k.val = k.val; rw [d1]; omega

/-- WHAT POINT `t` WRITES BACK is block `t` of the array of scores. -/
theorem flushed_eq (c : Dev nD) (t : Fin cfg0.N) :
    (dats m 0 c).flushed 4 t = ((cfg0.win 4).blk t).view.read (Elt Ideal) (result m c) := by
  have ht := point_lt t
  obtain ⟨-, -, -, -, -, -, -, -, -, -, e0, e1⟩ := idx_facts t
  rw [Value.flushed4]
  funext y
  obtain ⟨q, cc, rfl⟩ : ∃ (q : Fin 32) (cc : Fin 128), y = ix2 q cc := ⟨y 0, y 1, eq_ix2 (n0 := 32) (n1 := 128) y⟩
  have hcc := cc.isLt
  show out0_4 (iblk m c 0 t) (iblk m c 1 t) (iblk m c 2 t) (iblk m c 3 t) (ix2 q cc)
    = result m c (((cfg0.win 4).blk t).view.emb (ix2 q cc))
  have hemb : ((cfg0.win 4).blk t).view.emb (ix2 q cc)
      = (ix2 q (⟨128 * t.val + cc.val, by omega⟩ : Fin 512) : S32x512.Idx) :=
    funext fun a => Fin.ext (by
      match a with
      | ⟨0, _⟩ => show win0_4.index t (0 : Fin 2) * 32 + 1 * q.val = q.val; rw [e0]; omega
      | ⟨1, _⟩ => show win0_4.index t (1 : Fin 2) * 128 + 1 * cc.val = 128 * t.val + cc.val; rw [e1]; omega)
  rw [hemb]
  refine (out_apply (iblk m c 0 t) (iblk m c 1 t) (iblk m c 2 t) (iblk m c 3 t) q cc).trans ?_
  show score (N := 128) (iblk m c 0 t) (iblk m c 2 t) (iblk m c 1 t) (iblk m c 3 t) q cc
    = score (N := 512) (V m c main_arg0) (V m c main_arg2) (V m c main_arg1) (V m c main_arg3) q
        (⟨128 * t.val + cc.val, by omega⟩ : Fin 512)
  unfold score
  refine Finset.sum_congr rfl fun mm _ => congrArg (Finset.univ.sup) (funext fun k =>
    Finset.sum_congr rfl fun h _ => ?_)
  exact congrArg₂ (fun a b : EReal => a * b)
    (congrArg₂ (fun a b : EReal => a * b) (queryBlock_apply m c t q mm h)
      (congrArg (FloatOps.sitofp (F := Ideal) .f32) (queryMaskBlock_apply m c t q mm)))
    (congrArg₂ (fun a b : EReal => a * b) (docBlock_apply m c t cc k h)
      (congrArg (FloatOps.sitofp (F := Ideal) .f32) (docMaskBlock_apply m c t cc k)))

/-- An index of the result is in point `t`'s block iff each coordinate is in the block's range on its axis. -/
theorem mem_blk (t : Fin cfg0.N) (i : S32x512.Idx) :
    i ∈ ((cfg0.win 4).blk t).view.set ↔ ∀ a : Fin 2, win0_4.index t a * S32x128.size a ≤ (i a).val
      ∧ (i a).val < win0_4.index t a * S32x128.size a + S32x128.size a := by
  show i ∈ ((View.whole main_v0).slice (win0_4.rect t)).set ↔ _
  rw [View.set_slice_whole, Rect.mem_set_unit]
  exact Iff.rfl

/-- Every column d of the result is written back by the point d / 128. -/
theorem cover (i : S32x512.Idx) :
    ∃ t : Fin cfg0.N, (cfg0.win 4).flush t = true ∧ i ∈ ((cfg0.win 4).blk t).view.set := by
  have h0 : (i 0).val < 32 := (i 0).isLt
  have h1 : (i 1).val < 512 := (i 1).isLt
  have hN : (i 1).val / 128 < cfg0.N := lt_of_lt_of_eq (by omega : (i 1).val / 128 < 4) N_0.symm
  refine ⟨⟨(i 1).val / 128, hN⟩, flush0_4 _, ?_⟩
  obtain ⟨-, -, -, -, -, -, -, -, -, -, e0, e1⟩ := idx_facts ⟨(i 1).val / 128, hN⟩
  have e1' : win0_4.index ⟨(i 1).val / 128, hN⟩ (1 : Fin 2) = (i 1).val / 128 := e1
  rw [mem_blk]
  intro a
  match a with
  | ⟨0, _⟩ =>
    show win0_4.index ⟨(i 1).val / 128, hN⟩ (0 : Fin 2) * 32 ≤ (i 0).val
      ∧ (i 0).val < win0_4.index ⟨(i 1).val / 128, hN⟩ (0 : Fin 2) * 32 + 32
    rw [e0]; omega
  | ⟨1, _⟩ =>
    show win0_4.index ⟨(i 1).val / 128, hN⟩ (1 : Fin 2) * 128 ≤ (i 1).val
      ∧ (i 1).val < win0_4.index ⟨(i 1).val / 128, hN⟩ (1 : Fin 2) * 128 + 128
    rw [e1']; omega

/-- THE RESULT ARRAY after the run holds the scores of the arguments. -/
theorem final (c : Dev nD) : (dats m 0 c).arrAt 4 cfg0.N = result m c :=
  (dats m 0 c).arrAt_eq_of_cover 4 _ (fun t _ => flushed_eq m c t) cover

/-- The run, read: the result at the scores of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.MaxSim

end
-- ==== Proof.Reference.lean ====
/-
  The reference program computes the scores.

  Its operations, read one at a time: both masks turned into numbers and multiplied onto the token features; one product of
  the masked documents [512, 180, 128] with the masked queries [32, 32, 128] over the features, giving entry (d, n, q, m); a
  transpose to (q, d, m, n); the maximum over n started from minus infinity; the sum over m started from zero.  At (q, d) that
  is the sum over m of the supremum over n of the inner product of the masked document token (d, n) with the masked query
  token (q, m) — the score, with the two factors of each product in the other order.
-/
import proofs.«106990_j44521630991138_2_alg».proof.Proof.Gen.ReferenceIdeal.Read
import proofs.«106990_j44521630991138_2_alg».proof.Proof.LibPayOps
import proofs.«106990_j44521630991138_2_alg».proof.Proof.Spec
import Idealize.ShloMosaic.PureOps.Ideal.Laws
import Idealize.ShloMosaic.Lib.ValueIdx

noncomputable section

open scoped BigOperators

namespace Cert.ReferenceIdeal.MaxSim

open Idealize.ShloMosaic Idealize.ShloMosaic.ValueIdx Cert.ReferenceIdeal Cert.ReferenceIdeal.Gen Cert.MaxSimSpec

/-- The maximum is taken along the last axis, the document's tokens. -/
theorem reduces_tokens : S32x512x32x180.Reduces [3] S32x512x32 := by decide

/-- The reduced index (q, d, m) with document token `k` put back is (q, d, m, k). -/
theorem lift_tokens (q : Fin 32) (d : Fin 512) (m : Fin 32) (k : Fin (S32x512x32x180.size 3)) :
    reduces_tokens.lift (ix3 q d m) k = ix4 q d m (⟨k.val, k.isLt⟩ : Fin 180) := by
  funext c
  apply Fin.ext
  fin_cases c <;> rfl

/-- Entry (q, d, m, n) of the transposed similarity array: the masked document token (d, n) against the masked query
    token (q, m). -/
theorem sim_apply (x0 : (⟨S32x32x128, .f32⟩ : BufTy).Contents (Elt Ideal)) (x1 : (⟨S512x180x128, .f32⟩ : BufTy).Contents (Elt Ideal))
    (x2 : (⟨S32x32, .i32⟩ : BufTy).Contents (Elt Ideal)) (x3 : (⟨S512x180, .i32⟩ : BufTy).Contents (Elt Ideal))
    (q : Fin 32) (d : Fin 512) (m : Fin 32) (n : Fin 180) :
    Read.val_main_v9 (F := Ideal) x0 x1 x2 x3 (ix4 q d m n)
      = ∑ h : Fin 128, (x1 (ix3 d n h) * FloatOps.sitofp (F := Ideal) .f32 (x3 (ix2 d n)))
          * (x0 (ix3 q m h) * FloatOps.sitofp (F := Ideal) .f32 (x2 (ix2 q m))) := by
  have e9 : Read.idx_main_v9 (ix4 q d m n) = ix4 d n q m :=
    funext fun a => Fin.ext (by
      match a with
      | ⟨0, _⟩ => rfl
      | ⟨1, _⟩ => rfl
      | ⟨2, _⟩ => rfl
      | ⟨3, _⟩ => rfl)
  have el : ∀ h : Fin 128, Read.lidx_main_v8 (ix4 d n q m) h = ix3 d n h := fun h =>
    funext fun a => Fin.ext (by
      match a with
      | ⟨0, _⟩ => rfl
      | ⟨1, _⟩ => rfl
      | ⟨2, _⟩ => rfl)
  have er : ∀ h : Fin 128, Read.ridx_main_v8 (ix4 d n q m) h = ix3 q m h := fun h =>
    funext fun a => Fin.ext (by
      match a with
      | ⟨0, _⟩ => rfl
      | ⟨1, _⟩ => rfl
      | ⟨2, _⟩ => rfl)
  have e6 : ∀ h : Fin 128, Read.idx_main_v5 (Read.idx_main_v6 (ix3 d n h)) = ix2 d n := fun h =>
    funext fun a => Fin.ext (by
      match a with
      | ⟨0, _⟩ => rfl
      | ⟨1, _⟩ => rfl)
  have e2 : ∀ h : Fin 128, Read.idx_main_v1 (Read.idx_main_v2 (ix3 q m h)) = ix2 q m := fun h =>
    funext fun a => Fin.ext (by
      match a with
      | ⟨0, _⟩ => rfl
      | ⟨1, _⟩ => rfl)
  rw [Read.val_main_v9_apply, e9, Read.val_main_v8_apply]
  refine Finset.sum_congr rfl fun h _ => ?_
  rw [el h, er h, Read.val_main_v7_apply, Read.val_main_v6_apply, Read.val_main_v5_apply, Read.val_main_v4_apply, e6 h,
    Read.val_main_v3_apply, Read.val_main_v2_apply, Read.val_main_v1_apply, Read.val_main_v0_apply, e2 h]
  rfl

/-- The maximum over the document's tokens, from minus infinity, at (q, d, m): the supremum of those entries. -/
theorem tokenMax_apply (x0 : (⟨S32x32x128, .f32⟩ : BufTy).Contents (Elt Ideal)) (x1 : (⟨S512x180x128, .f32⟩ : BufTy).Contents (Elt Ideal))
    (x2 : (⟨S32x32, .i32⟩ : BufTy).Contents (Elt Ideal)) (x3 : (⟨S512x180, .i32⟩ : BufTy).Contents (Elt Ideal))
    (q : Fin 32) (d : Fin 512) (m : Fin 32) :
    Read.val_main_v10 (F := Ideal) x0 x1 x2 x3 (ix3 q d m)
      = Finset.univ.sup fun n : Fin 180 => Read.val_main_v9 (F := Ideal) x0 x1 x2 x3 (ix4 q d m n) := by
  unfold Read.val_main_v10
  rw [Host.reduce_eq_fold_single FloatOps.maximumf _ _ reducesTo_S32x512x32x180_S32x512x32_d3 reduces_tokens h_S_]
  have hb : Read.val_main_cst (F := Ideal) (Shape.Idx.first h_S_) = (⊥ : EReal) := Cert.LibPayOps.ofBits_f32_neg_inf
  rw [hb]
  refine (Cert.LibPayOps.fold_max_bot_eq_sup _ _).trans ?_
  exact congrArg (Finset.univ.sup) (funext fun k =>
    congrArg (Read.val_main_v9 (F := Ideal) x0 x1 x2 x3) (lift_tokens q d m k))

/-- THE REFERENCE'S RESULT is the array of scores of its arguments. -/
theorem reference_eq (x0 : (⟨S32x32x128, .f32⟩ : BufTy).Contents (Elt Ideal)) (x1 : (⟨S512x180x128, .f32⟩ : BufTy).Contents (Elt Ideal))
    (x2 : (⟨S32x32, .i32⟩ : BufTy).Contents (Elt Ideal)) (x3 : (⟨S512x180, .i32⟩ : BufTy).Contents (Elt Ideal)) :
    Read.val_main_v11 (F := Ideal) x0 x1 x2 x3 = scores (N := 512) x0 x2 x1 x3 := by
  funext i
  obtain ⟨q, d, rfl⟩ : ∃ (q : Fin 32) (d : Fin 512), i = ix2 q d := ⟨i 0, i 1, eq_ix2 i⟩
  rw [Read.val_main_v11_apply, Read.val_main_cst_0_apply, scores_apply]
  have hz : FloatOps.ofBits (F := Ideal) .f32 0x00000000#32 = (0 : EReal) := Ideal.ofBits_zero_f32
  rw [hz, zero_add]
  unfold score
  refine Finset.sum_congr rfl fun m _ => ?_
  have e11 : Read.idx_main_v11 (ix2 q d) m = ix3 q d m :=
    funext fun a => Fin.ext (by
      match a with
      | ⟨0, _⟩ => rfl
      | ⟨1, _⟩ => rfl
      | ⟨2, _⟩ => rfl)
  rw [e11, tokenMax_apply]
  refine congrArg (Finset.univ.sup) (funext fun n => ?_)
  rw [sim_apply]
  exact Finset.sum_congr rfl fun h _ => mul_comm _ _

end Cert.ReferenceIdeal.MaxSim

end
-- ==== Proof.lean ====
/-
  The kernel and its reference compute the same late-interaction scores.

  Both programs take 32 queries of 32 token vectors, 512 documents of 180 token vectors (128 features each) and a mask word per
  token, and return, for every (query q, document d),

      sum over the query's tokens m of  max over the document's tokens n of
        the inner product over the features h of (Q (q, m, h) * qmask (q, m)) and (D (d, n, h) * dmask (d, n)),

  on the extended reals (the maximum started from minus infinity, the sum from zero).  The kernel walks the documents in four
  blocks of 128, each block in eight chunks of sixteen, one matrix product per chunk and one reduction per document
  (DocColumn, ChunkSim, Block), and its four blocks tile the result (ScoreArray).  The reference does one product over all
  the documents, a transpose and two reductions (Reference).  Index by index the two are the same sum of suprema of sums; the
  only algebra between them is the order of the two factors of each product, so no finiteness of the inputs is used.

  The three frames are the generated ones (the reference's is its generated run with the result dropped), and the
  idealization rewrote no operation of the kernel, so that conjunct is trivial.
-/
import proofs.«106990_j44521630991138_2_alg».proof.Defs
import proofs.«106990_j44521630991138_2_alg».proof.Proof.Gen.Kernel
import proofs.«106990_j44521630991138_2_alg».proof.Proof.Gen.Kernel.Skeleton
import proofs.«106990_j44521630991138_2_alg».proof.Proof.Gen.Kernel.Launch
import proofs.«106990_j44521630991138_2_alg».proof.Proof.Gen.Kernel.Points
import proofs.«106990_j44521630991138_2_alg».proof.Proof.Gen.Kernel.Frame
import proofs.«106990_j44521630991138_2_alg».proof.Proof.Gen.KernelIdeal
import proofs.«106990_j44521630991138_2_alg».proof.Proof.Gen.KernelIdeal.Skeleton
import proofs.«106990_j44521630991138_2_alg».proof.Proof.Gen.KernelIdeal.Launch
import proofs.«106990_j44521630991138_2_alg».proof.Proof.Gen.KernelIdeal.Points
import proofs.«106990_j44521630991138_2_alg».proof.Proof.Gen.KernelIdeal.Frame
import proofs.«106990_j44521630991138_2_alg».proof.Proof.Gen.ReferenceIdeal
import proofs.«106990_j44521630991138_2_alg».proof.Proof.Gen.Pre_finite_inputs
import proofs.«106990_j44521630991138_2_alg».proof.Proof.Gen.KernelIdeal.Value
import proofs.«106990_j44521630991138_2_alg».proof.Proof.Gen.ReferenceIdeal.Run
import proofs.«106990_j44521630991138_2_alg».proof.Proof.Gen.ReferenceIdeal.Read
import proofs.«106990_j44521630991138_2_alg».proof.Proof.ScoreArray
import proofs.«106990_j44521630991138_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the array of scores of those arguments. -/
theorem algebraic : Cert.algebraic_KernelIdeal_ReferenceIdeal := by
  intro m ρ m' ρ' _ hagree
  refine ⟨fun c => Cert.KernelIdeal.MaxSim.result m c, Cert.KernelIdeal.MaxSim.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.MaxSim.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
